-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x1 : Shape := ⟨2, ![11008, 1]⟩
abbrev S8192x11008 : Shape := ⟨2, ![8192, 11008]⟩
abbrev S512x4096 : Shape := ⟨2, ![512, 4096]⟩
abbrev S256x4096 : Shape := ⟨2, ![256, 4096]⟩
abbrev S256x1 : Shape := ⟨2, ![256, 1]⟩
abbrev S512x256 : Shape := ⟨2, ![512, 256]⟩
abbrev S4x2048x11008 : Shape := ⟨3, ![4, 2048, 11008]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S11008x1, .f32⟩
  | .hbm, ⟨5, _⟩ => ⟨S8192x11008, .f32⟩
  | .hbm, ⟨6, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S512x256, .f32⟩
  | .local _ .vmem, ⟨7, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S11008_S11008x1 : S11008.ShapeCasts S11008x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x11008.size a
  hwx0_3 : ∀ i : grid0.Coords, EltTy.bits .f32 = 32 ∨ (Rect.block (s := S8192x11008) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S11008x1, .f32⟩
  | .hbm, ⟨5, _⟩ => ⟨S11008x4096, .f32⟩
  | .hbm, ⟨6, _⟩ => ⟨S11008x4096, .f32⟩
  | .hbm, ⟨7, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LinearSpec.lean ====
/-
  The mathematics of the certificate, free of any program.

  A linear layer with per-channel dequantised integer weights: for an activation `x[b, s, k]`, integer weights
  `w[o, k]` and one scale per output channel `scale[o]`,

      out[b, s, o] = ∑ k, x[b, s, k] · (float(w[o, k]) · scale[o])

  over the extended reals. `rows` is the same sum over the activation flattened to rows `r = b · 2048 + s` and the
  scales laid out as a column; `linear` is the sum over the three-axis activation. Both programs compute `linear`:
  one directly, one by computing `rows` block by block and un-flattening the rows.
-/
import Idealize.ShloMosaic.PureOps.Ideal
import Idealize.ShloMosaic.Lib.ValueIdx

noncomputable section

namespace Cert.Int8Linear

open Idealize.ShloMosaic Idealize.ShloMosaic.ValueIdx

/-- One dequantised weight: the integer read as a real, times its channel's scale. -/
def deq (w : BitVec 32) (s : Ideal .f32) : Ideal .f32 := FloatOps.sitofp (F := Ideal) .f32 w * s

/-- The flattened layer: row `r` of the activation against dequantised channel `o`, summed over the 4096 features. -/
def rows (x : Vec Ideal ⟨2, ![8192, 4096]⟩ .f32) (w : Vec Ideal ⟨2, ![11008, 4096]⟩ .i32) (sc : Vec Ideal ⟨2, ![11008, 1]⟩ .f32) :
    Vec Ideal ⟨2, ![8192, 11008]⟩ .f32 :=
  fun j => ∑ k : Fin 4096, x (ix2 (j 0) k) * deq (w (ix2 (j 1) k)) (sc (ix2 (j 1) (0 : Fin 1)))

/-- The layer itself: position `(b, s)` of the activation against dequantised channel `o`. -/
def linear (x : Vec Ideal ⟨3, ![4, 2048, 4096]⟩ .f32) (w : Vec Ideal ⟨2, ![11008, 4096]⟩ .i32) (sc : Vec Ideal ⟨1, ![11008]⟩ .f32) :
    Vec Ideal ⟨3, ![4, 2048, 11008]⟩ .f32 :=
  fun i => ∑ k : Fin 4096, x (ix3 (i 0) (i 1) k) * deq (w (ix2 (i 2) k)) (sc (ix1 (i 2)))

end Cert.Int8Linear

end
-- ==== Proof.BlockProduct.lean ====
/-
  What the kernel body computes from its three loaded blocks, entry by entry.

  The body multiplies a 512 × 4096 block of activation rows with a 256 × 4096 block of dequantised weights,
  contracting the feature axis of both, into a zero accumulator. Over the extended reals the changes of float
  format are the identity and the product into zero is the plain sum, so entry `(p, q)` of the result is
  `∑ k, x[p, k] · (float(w[q, k]) · scale[q, 0])`.
-/
import proofs.«166100_j29669634081272_1_alg».proof.Proof.Gen.KernelIdeal.Skeleton
import proofs.«166100_j29669634081272_1_alg».proof.Proof.LinearSpec
import Idealize.ShloMosaic.Lib.Pipeline.Value
import Idealize.ShloMosaic.Lib.ValueIdx
import Idealize.ShloMosaic.PureOps.Ideal.Laws

noncomputable section

namespace Cert.Int8Linear

open Idealize.ShloMosaic Idealize.ShloMosaic.ValueIdx Cert.KernelIdeal Cert.KernelIdeal.Gen

/-- The activation operand is read at the output's row; -/
theorem lhs_row (j : S512x256.Idx) (c : dot_S512x4096_S256x4096_S512x256_1_1_0_0_n_n.contr.Idx) : (dot_S512x4096_S256x4096_S512x256_1_1_0_0_n_n.lhsIdx j c 0).val = (j 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- the weight operand at the output's column, which is a ROW of the weight block (the product contracts the second
    axis of both operands). -/
theorem rhs_row (j : S512x256.Idx) (c : dot_S512x4096_S256x4096_S512x256_1_1_0_0_n_n.contr.Idx) : (dot_S512x4096_S256x4096_S512x256_1_1_0_0_n_n.rhsIdx j c 0).val = (j 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl

/-- The scale column broadcast along the features reads the column's entry of the same row. -/
theorem scale_bcast_apply (x2 : Vec Ideal S256x1 .f32) (q : Fin 256) (k : Fin 4096) :
    broadcastTo S256x4096 (shapeCast S256x1 x2 shapeCasts_S256x1_S256x1) broadcasts_S256x1_S256x4096 (ix2 q k) = x2 (ix2 q (0 : Fin 1)) := by
  rw [shapeCast_self]
  exact broadcastTo_apply x2 broadcasts_S256x1_S256x4096 (ix2 q k) (ix2 q (0 : Fin 1)) (fun a => match a with
    | ⟨0, _⟩ => by show q.val = if (256 : Nat) = 1 then 0 else q.val; rw [if_neg (by decide)]
    | ⟨1, _⟩ => by show 0 = if (1 : Nat) = 1 then 0 else k.val; rw [if_pos rfl])

/-- Entry `(p, q)` of the body's product: row `p` of the activation block against row `q` of the dequantised
    weight block, summed over the features. -/
theorem blockProduct_apply (x0 : Vec Ideal S512x4096 .f32) (x1 : Vec Ideal S256x4096 .i32) (x2 : Vec Ideal S256x1 .f32)
    (p : Fin 512) (q : Fin 256) :
    k0_pay1 (F := Ideal) x0 x1 x2 (ix2 p q)
      = ∑ k : Fin 4096, x0 (ix2 p k) * deq (x1 (ix2 q k)) (x2 (ix2 q (0 : Fin 1))) := by
  unfold k0_pay1
  simp only [matmul]
  rw [Ideal.matmul_constant_zero_apply]
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun a => Fin.ext (by
    match a with
    | ⟨0, _⟩ => exact lhs_row _ _
    | ⟨1, _⟩ => exact (dot_S512x4096_S256x4096_S512x256_1_1_0_0_n_n.lhsIdx_val_of_single rfl _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun a => Fin.ext (by
    match a with
    | ⟨0, _⟩ => exact rhs_row _ _
    | ⟨1, _⟩ => exact (dot_S512x4096_S256x4096_S512x256_1_1_0_0_n_n.rhsIdx_val_of_single rfl _ _).trans hk)
  rw [el, er]
  show shapeCast S512x4096 x0 shapeCasts_S512x4096_S512x4096 (ix2 p k) * (FloatOps.sitofp (F := Ideal) .f32 (x1 (ix2 q k)) * broadcastTo S256x4096 (shapeCast S256x1 x2 shapeCasts_S256x1_S256x1) broadcasts_S256x1_S256x4096 (ix2 q k)) = _
  rw [shapeCast_self, scale_bcast_apply]
  rfl

/-- A block of the flattened layer. If the three loaded blocks are rows `bi · 512 …` of the activation, rows
    `bj · 256 …` of the weights and rows `bj · 256 …` of the scale column, then entry `j` of the body's product is
    entry `(bi · 512 + j₀, bj · 256 + j₁)` of `rows`. -/
theorem blockProduct_eq_rows (x0 : Vec Ideal S512x4096 .f32) (x1 : Vec Ideal S256x4096 .i32) (x2 : Vec Ideal S256x1 .f32)
    (X : Vec Ideal S8192x4096 .f32) (W : Vec Ideal S11008x4096 .i32) (Sc : Vec Ideal S11008x1 .f32)
    (bi bj : Nat) (j : S512x256.Idx) (i : S8192x11008.Idx)
    (hi0 : (i 0).val = bi * 512 + (j 0).val) (hi1 : (i 1).val = bj * 256 + (j 1).val)
    (h0 : ∀ (p : Fin 512) (k : Fin 4096) (r : Fin 8192), r.val = bi * 512 + p.val → x0 (ix2 p k) = X (ix2 r k))
    (h1 : ∀ (q : Fin 256) (k : Fin 4096) (o : Fin 11008), o.val = bj * 256 + q.val → x1 (ix2 q k) = W (ix2 o k))
    (h2 : ∀ (q : Fin 256) (o : Fin 11008), o.val = bj * 256 + q.val → x2 (ix2 q (0 : Fin 1)) = Sc (ix2 o (0 : Fin 1))) :
    k0_pay1 (F := Ideal) x0 x1 x2 j = rows X W Sc i := by
  obtain ⟨p, q, rfl⟩ : ∃ (p : Fin 512) (q : Fin 256), j = ix2 p q := ⟨j 0, j 1, eq_ix2 j⟩
  rw [blockProduct_apply]
  unfold rows
  refine Finset.sum_congr rfl fun k _ => ?_
  rw [h0 p k (i 0) hi0, h1 q k (i 1) hi1, h2 q (i 1) hi1]

end Cert.Int8Linear

end
-- ==== Proof.RowsArray.lean ====
/-
  From blocks to the array: what the region leaves in its output array.

  The grid has 16 × 43 points; point `t = (t / 43, t % 43)` loads rows `(t / 43) · 512 …` of the flattened activation,
  rows `(t % 43) · 256 …` of the weights and of the scale column, and writes the 512 × 256 block at
  `(t / 43, t % 43)` of the output. Each written block is the corresponding block of `rows` of the arrays the region
  finds, and the blocks tile the 8192 × 11008 output, so the output array ends holding `rows`.
-/
import proofs.«166100_j29669634081272_1_alg».proof.Proof.Gen.KernelIdeal.Frame
import proofs.«166100_j29669634081272_1_alg».proof.Proof.BlockProduct
import Idealize.ShloMosaic.Lib.Pipeline.Value
import Idealize.ShloMosaic.Lib.ValueIdx

set_option maxRecDepth 16384

noncomputable section

namespace Cert.Int8Linear

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The block each window holds at point `t`, decided once over the 688 points: the activation follows the output's
    block row, weights and scales follow the output's block column, and the output's block is `(t / 43, t % 43)`. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) = t.val / 43 ∧ win0_3.index t (1 : Fin 2) = t.val % 43 :=
  (by decide +kernel : ∀ t : Fin grid0.N, _)

/-- What point `t` writes back is block `t` of `rows` of the arrays as the region finds them. -/
theorem flushed_eq_rows (c : Dev nD) (t : Fin cfg0.N) :
    (dats m 0 c).flushed 3 t
      = ((cfg0.win 3).blk t).view.read (Elt Ideal) (rows (V m c main_v0) (V m c main_arg1) (V m c main_v1)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S256x4096) zero_offsets,
    View.ld_unit_zero (S := S256x1) zero_offsets]
  obtain ⟨e0, e1, e2, e3, e4, e5, e6, e7⟩ := block_indices t
  funext j
  show k0_pay1 (F := Ideal) (iblk m c 0 t) (iblk m c 1 t) (iblk m c 2 t) j
    = rows (V m c main_v0) (V m c main_arg1) (V m c main_v1) (((cfg0.win 3).blk t).view.emb j)
  refine blockProduct_eq_rows _ _ _ _ _ _ (win0_3.index t (0 : Fin 2)) (win0_3.index t (1 : Fin 2)) j _ ?_ ?_ ?_ ?_ ?_
  · show win0_3.index t (0 : Fin 2) * 512 + 1 * (j 0).val = _
    omega
  · show win0_3.index t (1 : Fin 2) * 256 + 1 * (j 1).val = _
    omega
  · intro p k r hr
    show V m c main_v0 (((cfg0.win 0).blk t).view.emb (ix2 p k)) = V m c main_v0 (ix2 r k)
    refine congrArg _ (funext fun a => Fin.ext ?_)
    match a with
    | ⟨0, _⟩ => show win0_0.index t (0 : Fin 2) * 512 + 1 * p.val = r.val; omega
    | ⟨1, _⟩ => show win0_0.index t (1 : Fin 2) * 4096 + 1 * k.val = k.val; omega
  · intro q k o ho
    show V m c main_arg1 (((cfg0.win 1).blk t).view.emb (ix2 q k)) = V m c main_arg1 (ix2 o k)
    refine congrArg _ (funext fun a => Fin.ext ?_)
    match a with
    | ⟨0, _⟩ => show win0_1.index t (0 : Fin 2) * 256 + 1 * q.val = o.val; omega
    | ⟨1, _⟩ => show win0_1.index t (1 : Fin 2) * 4096 + 1 * k.val = k.val; omega
  · intro q o ho
    show V m c main_v1 (((cfg0.win 2).blk t).view.emb (ix2 q (0 : Fin 1))) = V m c main_v1 (ix2 o (0 : Fin 1))
    refine congrArg _ (funext fun a => Fin.ext ?_)
    match a with
    | ⟨0, _⟩ => show win0_2.index t (0 : Fin 2) * 256 + 1 * q.val = o.val; omega
    | ⟨1, _⟩ => show win0_2.index t (1 : Fin 2) * 1 + 1 * 0 = 0; omega

/-- An index of the output array is in point `t`'s block iff each coordinate is in the block's range. -/
theorem mem_block (t : Fin cfg0.N) (i : S8192x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v2).slice (win0_3.rect t)).set ↔ _
  rw [View.set_slice_whole, Rect.mem_set_unit]
  exact Iff.rfl

/-- Every entry `(r, o)` of the output lies in the block of point `(r / 512) · 43 + o / 256`. -/
theorem blocks_cover (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : (i 0).val / 512 * 43 + (i 1).val / 256 < cfg0.N := by
    show _ < grid0.N
    rw [N_0]; omega
  refine ⟨⟨(i 0).val / 512 * 43 + (i 1).val / 256, hN⟩, flush0_3 _, ?_⟩
  obtain ⟨-, -, -, -, -, -, e6, e7⟩ := block_indices ⟨(i 0).val / 512 * 43 + (i 1).val / 256, hN⟩
  rw [mem_block]
  intro a
  match a with
  | ⟨0, _⟩ =>
    show win0_3.index _ (0 : Fin 2) * 512 ≤ (i 0).val ∧ (i 0).val < win0_3.index _ (0 : Fin 2) * 512 + 512
    rw [e6]; show ((i 0).val / 512 * 43 + (i 1).val / 256) / 43 * 512 ≤ _ ∧ _ < ((i 0).val / 512 * 43 + (i 1).val / 256) / 43 * 512 + 512
    omega
  | ⟨1, _⟩ =>
    show win0_3.index _ (1 : Fin 2) * 256 ≤ (i 1).val ∧ (i 1).val < win0_3.index _ (1 : Fin 2) * 256 + 256
    rw [e7]; show ((i 0).val / 512 * 43 + (i 1).val / 256) % 43 * 256 ≤ _ ∧ _ < ((i 0).val / 512 * 43 + (i 1).val / 256) % 43 * 256 + 256
    omega

/-- The output array after the region: `rows` of the arrays the region finds. -/
theorem region_array (c : Dev nD) :
    (dats m 0 c).arrAt 3 cfg0.N = rows (V m c main_v0) (V m c main_arg1) (V m c main_v1) :=
  (dats m 0 c).arrAt_eq_of_cover 3 _ (fun t _ => flushed_eq_rows m c t) blocks_cover

end Cert.Int8Linear

end
-- ==== Proof.HostEnds.lean ====
/-
  The host lines around the region.

  Before the region the activation is flattened `[4, 2048, 4096] → [8192, 4096]` and the scales are laid out as a
  column `[11008] → [11008, 1]`; after it the rows are un-flattened `[8192, 11008] → [4, 2048, 11008]`. Each is a
  change of shape that keeps the row-major position, so row `r = b · 2048 + s` of the flattened activation is
  position `(b, s)`, the column's entry `(o, 0)` is scale `o`, and entry `(b, s, o)` of the result is entry
  `(b · 2048 + s, o)` of the region's output.
-/
import proofs.«166100_j29669634081272_1_alg».proof.Proof.RowsArray
import Idealize.ShloMosaic.Lib.StableHlo.Run

set_option maxRecDepth 16384

noncomputable section

namespace Cert.Int8Linear

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The region finds the activation flattened. -/
theorem found_activation (c : Dev nD) :
    (V m c main_v0 : S8192x4096.Idx → Ideal .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the scales as a column. -/
theorem found_scales (c : Dev nD) :
    (V m c main_v1 : S11008x1.Idx → Ideal .f32)
      = shapeCast S11008x1 (m ((c : Thread nD τ).loc main_arg2)) shapeCasts_S11008_S11008x1 := by
  show StableHlo.after hostOps0 (fun b => m (c, b)) (Proc.devRef .tc main_v1) = _
  after_results
  rfl

/-- Un-flattening the rows of the flattened layer gives the layer: entry `(b, s, o)` reads row `b · 2048 + s`, whose
    activation entries are those of position `(b, s)`, and the column's entry `(o, 0)` is scale `o`. -/
theorem unflatten_rows (X : Vec Ideal S4x2048x4096 .f32) (W : Vec Ideal S11008x4096 .i32) (Sc : Vec Ideal S11008 .f32)
    (h1 : S4x2048x4096.ShapeCasts S8192x4096) (h2 : S11008.ShapeCasts S11008x1) (h3 : S8192x11008.ShapeCasts S4x2048x11008) :
    shapeCast S4x2048x11008 (rows (shapeCast S8192x4096 X h1) W (shapeCast S11008x1 Sc h2)) h3 = linear X W Sc := by
  funext i
  obtain ⟨b, s, o, rfl⟩ : ∃ (b : Fin 4) (s : Fin 2048) (o : Fin 11008), i = ix3 b s o := ⟨i 0, i 1, i 2, eq_ix3 i⟩
  have hr : b.val * 2048 + s.val < 8192 := by have := b.isLt; have := s.isLt; omega
  rw [shapeCast_apply _ h3 (ix3 b s o) (ix2 (⟨b.val * 2048 + s.val, hr⟩ : Fin 8192) o) (by
    rw [Shape.rowMajor_val_two, Shape.rowMajor_val_three]; rfl)]
  unfold rows linear
  refine Finset.sum_congr rfl fun k _ => ?_
  rw [shapeCast_apply X h1 (ix2 (⟨b.val * 2048 + s.val, hr⟩ : Fin 8192) k) (ix3 b s k) (by
      rw [Shape.rowMajor_val_two, Shape.rowMajor_val_three]; rfl),
    shapeCast_apply Sc h2 (ix2 o (0 : Fin 1)) (ix1 o) (by
      rw [Shape.rowMajor_val_two, Shape.rowMajor_val_one]; show o.val = o.val * 1 + 0; omega)]

/-- The result after the lines that follow the region: the layer of the argument arrays. -/
theorem tail_result (c : Dev nD) :
    Pipeline.afterTail₀ cfgs (dats m) 0 (V0 m) [hostOps1] c main_v3
      = linear (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = rows (shapeCast S8192x4096 (m ((c : Thread nD τ).loc main_arg0)) shapeCasts_S4x2048x4096_S8192x4096)
          (m ((c : Thread nD τ).loc main_arg1))
          (shapeCast S11008x1 (m ((c : Thread nD τ).loc main_arg2)) shapeCasts_S11008_S11008x1) := by
    refine ((Pipeline.withArrays_arr spec0 launch0.win.arr_inj c _ _ 3).trans (region_array m c)).trans ?_
    rw [found_activation, found_scales, V_main_arg1]
  refine Eq.trans ?_ (unflatten_rows (m ((c : Thread nD τ).loc main_arg0)) (m ((c : Thread nD τ).loc main_arg1))
    (m ((c : Thread nD τ).loc main_arg2)) shapeCasts_S4x2048x4096_S8192x4096 shapeCasts_S11008_S11008x1
    shapeCasts_S8192x11008_S4x2048x11008)
  show shapeCast S4x2048x11008 (Pipeline.withArrays (cfgs 0).spec c (V0 m c) (fun w => (dats m 0 c).arrAt w (cfgs 0).N)
    (Proc.devRef .tc main_v2)) shapeCasts_S8192x11008_S4x2048x11008 = _
  rw [hA]

end Cert.Int8Linear

end
-- ==== Proof.KernelResult.lean ====
/-
  The idealised kernel's run, with its result named: every weakly fair execution ends with the result array holding
  `linear` of the argument arrays, and the argument arrays as they were.
-/
import proofs.«166100_j29669634081272_1_alg».proof.Proof.HostEnds

noncomputable section

namespace Cert.Int8Linear

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer is no array of the pipeline, so the run leaves it as the lines after the region do: at the
    un-flattened output of the region, which is the layer. The arguments are read-only throughout. -/
theorem kernel_run :
    θ_run defs (onTc (τ := τ) (main (F := Ideal))) ⟨m, fun _ => 0, ρ⟩ (fun r => ∀ c : Dev nD,
      r.2.mem ((c.tc : Thread nD τ).loc main_v3)
          = linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Int8Linear

end
-- ==== Proof.ReferenceLinear.lean ====
/-
  The reference computes `linear`.

  Its five host lines read the integer weights as floats, spread each channel's scale along the features, multiply,
  and contract the feature axis of the activation with that of the dequantised weights. Read at an output index
  `(b, s, o)` over the extended reals this is `∑ k, x[b, s, k] · (float(w[o, k]) · scale[o])`.
-/
import proofs.«166100_j29669634081272_1_alg».proof.Proof.Gen.ReferenceIdeal.Read
import proofs.«166100_j29669634081272_1_alg».proof.Proof.LinearSpec

noncomputable section

namespace Cert.Int8Linear

open Idealize.ShloMosaic Idealize.ShloMosaic.ValueIdx
open Cert.ReferenceIdeal Cert.ReferenceIdeal.Read

/-- The reference's result stage is the layer, index by index. -/
theorem reference_eq_linear (x0 : Vec Ideal S4x2048x4096 .f32) (x1 : Vec Ideal S11008x4096 .i32) (x2 : Vec Ideal S11008 .f32) :
    val_main_v4 (F := Ideal) x0 x1 x2 = linear x0 x1 x2 := by
  funext i
  obtain ⟨b, s, o, rfl⟩ : ∃ (b : Fin 4) (s : Fin 2048) (o : Fin 11008), i = ix3 b s o := ⟨i 0, i 1, i 2, eq_ix3 i⟩
  have el : ∀ k, lidx_main_v4 (ix3 b s o) k = ix3 b s k := fun k => funext fun a => Fin.ext (by
    match a with | ⟨0, _⟩ => rfl | ⟨1, _⟩ => rfl | ⟨2, _⟩ => rfl)
  have er : ∀ k, ridx_main_v4 (ix3 b s o) k = ix2 o k := fun k => funext fun a => Fin.ext (by
    match a with | ⟨0, _⟩ => rfl | ⟨1, _⟩ => rfl)
  have es : ∀ k : Fin 4096, idx_main_v1 (idx_main_v2 (ix2 o k)) = ix1 o := fun k => funext fun a => Fin.ext (by
    match a with | ⟨0, _⟩ => rfl)
  rw [val_main_v4_apply]
  unfold linear
  refine Finset.sum_congr rfl fun k _ => ?_
  rw [el, er, val_main_v3_apply, val_main_v0_apply, val_main_v2_apply, val_main_v1_apply, es]
  rfl

end Cert.Int8Linear

end
-- ==== Proof.lean ====
/-
  Equivalence of a weight-only int8 linear layer kernel with its einsum reference, over the extended reals.

  Both programs compute, for an activation `x[b, s, k]`, integer weights `w[o, k]` and per-channel scales `scale[o]`,

      out[b, s, o] = ∑ k, x[b, s, k] · (float(w[o, k]) · scale[o]).

  The kernel flattens the activation to 8192 rows, multiplies 512-row blocks of it with 256-channel blocks of the
  dequantised weights (contracting the 4096 features of both in one product into zero), and un-flattens the rows;
  the reference dequantises the whole weight matrix and contracts the feature axis directly. Over the extended reals
  a change of float format is the identity and both contractions are the same finite sum with its factors in the same
  order, so no algebraic law beyond re-indexing is used and the finiteness of the inputs is never opened.

  `LinearSpec` states the two sums; `BlockProduct` reads the kernel body's product entry by entry; `RowsArray` assembles
  the written blocks into the region's output array; `HostEnds` reads the shape changes around the region;
  `KernelResult` names the kernel's result; `ReferenceLinear` reads the reference. The idealisation rewrote no operation,
  so that conjunct is trivial.
-/
import proofs.«166100_j29669634081272_1_alg».proof.Defs
import proofs.«166100_j29669634081272_1_alg».proof.Proof.Gen.Kernel
import proofs.«166100_j29669634081272_1_alg».proof.Proof.Gen.Kernel.Skeleton
import proofs.«166100_j29669634081272_1_alg».proof.Proof.Gen.Kernel.Launch
import proofs.«166100_j29669634081272_1_alg».proof.Proof.Gen.Kernel.Points
import proofs.«166100_j29669634081272_1_alg».proof.Proof.Gen.Kernel.Frame
import proofs.«166100_j29669634081272_1_alg».proof.Proof.Gen.KernelIdeal
import proofs.«166100_j29669634081272_1_alg».proof.Proof.Gen.KernelIdeal.Skeleton
import proofs.«166100_j29669634081272_1_alg».proof.Proof.Gen.KernelIdeal.Launch
import proofs.«166100_j29669634081272_1_alg».proof.Proof.Gen.KernelIdeal.Points
import proofs.«166100_j29669634081272_1_alg».proof.Proof.Gen.KernelIdeal.Frame
import proofs.«166100_j29669634081272_1_alg».proof.Proof.Gen.ReferenceIdeal
import proofs.«166100_j29669634081272_1_alg».proof.Proof.Gen.Pre_finite_inputs
import proofs.«166100_j29669634081272_1_alg».proof.Proof.Gen.ReferenceIdeal.Run
import proofs.«166100_j29669634081272_1_alg».proof.Proof.Gen.ReferenceIdeal.Read
import proofs.«166100_j29669634081272_1_alg».proof.Proof.KernelResult
import proofs.«166100_j29669634081272_1_alg».proof.Proof.ReferenceLinear
import Idealize.ShloMosaic.Adequacy
import Idealize.ShloMosaic.Init

noncomputable section

namespace Cert.Proof

open Idealize.ShloMosaic Idealize.SL.Sem

/-- The word-level kernel terminates without a fault and keeps its arguments. -/
theorem frame_kernel : @Cert.frame_Kernel Cert.Kernel.Gen.facts Cert.Pre_finite_inputs.Gen.facts :=
  fun m ρ _ => Cert.Kernel.Gen.frame m ρ

/-- So does the idealised kernel. -/
theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both idealised programs end with the result array at the layer of those
    arguments: the kernel by its named run, the reference by its run read index by index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Int8Linear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Int8Linear.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.Int8Linear.reference_eq_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
